-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128 .f32) (main_arg7 : FVec F S128x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S128x256 .f32) (main_arg6 : FVec F S128 .f32) (main_arg7 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 66
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x256, .f32⟩
  | .hbm, ⟨38, _⟩ => ⟨S50000x256, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .f32⟩
  | .hbm, ⟨48, _⟩ => ⟨S_, .f32⟩
  | .hbm, ⟨49, _⟩ => ⟨S50000x256, .f32⟩
  | .hbm, ⟨50, _⟩ => ⟨S800000x1, .i32⟩
  | .hbm, ⟨51, _⟩ => ⟨S50000x256, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x256, .f32⟩
  | .hbm, ⟨63, _⟩ => ⟨S50000x256, .f32⟩
  | .hbm, ⟨64, _⟩ => ⟨S1x128, .f32⟩
  | .hbm, ⟨65, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x128, .f32⟩
  | .local _ .vmem, ⟨5, _⟩ => ⟨S256x128, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S128x256, .f32⟩
  | .local _ .vmem, ⟨14, _⟩ => ⟨S128x256, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S2000x256_S2000x256 : S2000x256.ShapeCasts S2000x256
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S256x128_S2000x256_1_1_0_0_n_n_wf : DotDims.WF S2000x128 S256x128 S2000x256 [1] [1] [0] [0] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S128x256_S2000x128_1_1_0_0_n_n_wf : DotDims.WF S2000x256 S128x256 S2000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S256x128_S2000x256_1_1_0_0_n_n : DotDims S2000x128 S256x128 S2000x256 where
  lhsContracting := [1]
  rhsContracting := [1]
  lhsNonContracting := [0]
  rhsNonContracting := [0]
  lhsBatch := []
  rhsBatch := []
  wf := dot_S2000x128_S256x128_S2000x256_1_1_0_0_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S128x256_S2000x128_1_1_0_0_n_n : DotDims S2000x256 S128x256 S2000x128 where
  lhsContracting := [1]
  rhsContracting := [1]
  lhsNonContracting := [0]
  rhsNonContracting := [0]
  lhsBatch := []
  rhsBatch := []
  wf := dot_S2000x256_S128x256_S2000x128_1_1_0_0_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S128x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S1x800000, .i32⟩
  | .hbm, ⟨49, _⟩ => ⟨S800000, .i32⟩
  | .hbm, ⟨50, _⟩ => ⟨S1x800000, .i32⟩
  | .hbm, ⟨51, _⟩ => ⟨S800000, .i32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x256, .f32⟩
  | .hbm, ⟨61, _⟩ => ⟨S_, .f32⟩
  | .hbm, ⟨62, _⟩ => ⟨S50000x256, .f32⟩
  | .hbm, ⟨63, _⟩ => ⟨S800000x1, .i32⟩
  | .hbm, ⟨64, _⟩ => ⟨S50000x256, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x256, .f32⟩
  | .hbm, ⟨76, _⟩ => ⟨S50000x256, .f32⟩
  | .hbm, ⟨77, _⟩ => ⟨S256x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S256x128, .f32⟩
  | .hbm, ⟨83, _⟩ => ⟨S50000x128, .f32⟩
  | .hbm, ⟨84, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibDotRhsT.lean ====
/-
  A matrix product with the right operand transposed, at the ideal values, read at an index.
  For the dimension numbers of an M×K by N×K product (`DotDims.transposedRhs M K N`: both operands contracted on their
  last axis, no batch axis) the kernel's `tpu.matmul` into a zero accumulator is, at the output index (a, b), the sum
  over k < K of l(a, k) · r(b, k) on the extended reals.
-/
import Idealize.ShloMosaic.PureOps.Ideal.Laws
import Idealize.ShloMosaic.Lib.ValueIdx

noncomputable section

namespace Cert.LibDotRhsT

open Idealize.ShloMosaic Idealize.ShloMosaic.ValueIdx

variable (M K N : Nat)

/-- The left operand's row is the output's row. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch by simp [DotDims.transposedRhs]),
    dif_pos (show (0 : Fin 2) ∈ (DotDims.transposedRhs M K N).lhsNonContracting by simp [DotDims.transposedRhs])]
  rfl

/-- The left operand's column is the contraction index. -/
theorem lhs1 (i : (⟨2, ![M, N]⟩ : Shape).Idx) (q : (DotDims.transposedRhs M K N).contr.Idx) :
    ((DotDims.transposedRhs M K N).lhsIdx i q 1).val
      = (q ⟨0, by rw [(DotDims.transposedRhs M K N).rank_contr]; exact Nat.one_pos⟩).val :=
  (DotDims.transposedRhs M K N).lhsIdx_val_of_single rfl i q

/-- The right operand's row is the output's column. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch by simp [DotDims.transposedRhs]),
    dif_pos (show (0 : Fin 2) ∈ (DotDims.transposedRhs M K N).rhsNonContracting by simp [DotDims.transposedRhs])]
  rfl

/-- The right operand's column is the contraction index. -/
theorem rhs1 (i : (⟨2, ![M, N]⟩ : Shape).Idx) (q : (DotDims.transposedRhs M K N).contr.Idx) :
    ((DotDims.transposedRhs M K N).rhsIdx i q 1).val
      = (q ⟨0, by rw [(DotDims.transposedRhs M K N).rank_contr]; exact Nat.one_pos⟩).val :=
  (DotDims.transposedRhs M K N).rhsIdx_val_of_single rfl i q

/-- The contraction's sum, re-indexed by k < K. -/
theorem sum_rhsT {φ₁ φ₂ : FTy} (l : FVec Ideal ⟨2, ![M, K]⟩ φ₁) (r : FVec Ideal ⟨2, ![N, K]⟩ φ₂) (j : (⟨2, ![M, N]⟩ : Shape).Idx) :
    ∑ k : (DotDims.transposedRhs M K N).contr.Idx,
        l ((DotDims.transposedRhs M K N).lhsIdx j k) * r ((DotDims.transposedRhs M K N).rhsIdx j k)
      = ∑ k : Fin K, l (ix2 (j 0) k) * r (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs0 M K N _ _
      | ⟨1, _⟩ => exact (lhs1 M K N _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs0 M K N _ _
      | ⟨1, _⟩ => exact (rhs1 M K N _ _).trans hk)
  exact congr (congrArg HMul.hMul (congrArg l el)) (congrArg r er)

/-- The kernel's product into a zero accumulator, at an index. -/
theorem matmul_rhsT {φ₁ φ₂ : FTy} (prec : Option ContractPrecision) (l : FVec Ideal ⟨2, ![M, K]⟩ φ₁) (r : FVec Ideal ⟨2, ![N, K]⟩ φ₂)
    (j : (⟨2, ![M, N]⟩ : Shape).Idx) :
    matmul (F := Ideal) (DotDims.transposedRhs M K N) prec l r (constant ⟨2, ![M, N]⟩ .f32 0x00000000#32) j
      = ∑ k : Fin K, l (ix2 (j 0) k) * r (ix2 (j 1) k) :=
  (Ideal.matmul_constant_zero_apply (DotDims.transposedRhs M K N) prec l r j).trans (sum_rhsT M K N l r j)

end Cert.LibDotRhsT

end
-- ==== Proof.Payload.lean ====
/-
  What each kernel body stores, at an index of its output block.

  Both bodies load a block of aggregated features, the same rows of the node features, the two whole weight matrices
  and the bias row, round the four matrices to bf16 (the identity on the extended reals), multiply each feature block by
  its weight matrix contracted on the LAST axis of both (so by the transpose), add the two products, add the bias row
  broadcast over the rows, and (first layer only) clamp at zero. At the block index (p, q):
      Σ_k msg(p, k) · Wl(q, k) + Σ_k x(p, k) · Wr(q, k) + b(0, q),   clamped at zero in the first layer.
-/
import proofs.«179948_j80023830659560_2_alg».proof.Proof.Gen.KernelIdeal.Skeleton
import proofs.«179948_j80023830659560_2_alg».proof.Proof.LibDotRhsT
import Idealize.ShloMosaic.Lib.Pipeline.Value
import Idealize.ShloMosaic.Lib.ValueLayout

noncomputable section

namespace Cert.KernelIdeal.Payload

open Cert.KernelIdeal Cert.KernelIdeal.Gen Idealize.ShloMosaic Idealize.ShloMosaic.ValueIdx

/-- The first kernel's product record is the 2000×128 by 256×128 product contracted on both last axes. -/
theorem dot0_eq : dot_S2000x128_S256x128_S2000x256_1_1_0_0_n_n = DotDims.transposedRhs 2000 128 256 := rfl

/-- The second kernel's product record is the 2000×256 by 128×256 product contracted on both last axes. -/
theorem dot1_eq : dot_S2000x256_S128x256_S2000x128_1_1_0_0_n_n = DotDims.transposedRhs 2000 256 128 := rfl

/-- The first kernel's product into a zero accumulator, at (p, q): Σ_k l(p, k) · r(q, k). -/
theorem mm0 {φ₁ φ₂ : FTy} (l : FVec Ideal S2000x128 φ₁) (r : FVec Ideal S256x128 φ₂) (p : Fin 2000) (q : Fin 256) :
    matmul (F := Ideal) dot_S2000x128_S256x128_S2000x256_1_1_0_0_n_n none l r (constant S2000x256 .f32 0x00000000#32) (ix2 p q)
      = ∑ k : Fin 128, l (ix2 p k) * r (ix2 q k) := by
  rw [dot0_eq]
  exact Cert.LibDotRhsT.matmul_rhsT 2000 128 256 none l r (ix2 p q)

/-- The second kernel's product into a zero accumulator, at (p, q): Σ_k l(p, k) · r(q, k). -/
theorem mm1 {φ₁ φ₂ : FTy} (l : FVec Ideal S2000x256 φ₁) (r : FVec Ideal S128x256 φ₂) (p : Fin 2000) (q : Fin 128) :
    matmul (F := Ideal) dot_S2000x256_S128x256_S2000x128_1_1_0_0_n_n none l r (constant S2000x128 .f32 0x00000000#32) (ix2 p q)
      = ∑ k : Fin 256, l (ix2 p k) * r (ix2 q k) := by
  rw [dot1_eq]
  exact Cert.LibDotRhsT.matmul_rhsT 2000 256 128 none l r (ix2 p q)

/-- The first kernel's stored value at the block index (p, q). -/
theorem pay0_apply (x0 x1 : FVec Ideal S2000x128 .f32) (x2 x3 : FVec Ideal S256x128 .f32) (x4 : FVec Ideal S1x256 .f32)
    (p : Fin 2000) (q : Fin 256) :
    k0_pay1 (F := Ideal) x0 x1 x2 x3 x4 (ix2 p q)
      = max ((∑ k : Fin 128, x0 (ix2 p k) * x2 (ix2 q k)) + (∑ k : Fin 128, x1 (ix2 p k) * x3 (ix2 q k))
          + x4 (ix2 (0 : Fin 1) q)) (Ideal.ofBits .f32 0x00000000#32) := by
  unfold k0_pay1
  simp only [shapeCast_self]
  show max (matmul (F := Ideal) _ none x0 x2 _ (ix2 p q) + matmul (F := Ideal) _ none x1 x3 _ (ix2 p q)
      + broadcastTo S2000x256 x4 broadcasts_S1x256_S2000x256 (ix2 p q)) _ = _
  rw [mm0, mm0, broadcastTo_1b_ab_apply]
  rfl

/-- The second kernel's stored value at the block index (p, q). -/
theorem pay1_apply (x0 x1 : FVec Ideal S2000x256 .f32) (x2 x3 : FVec Ideal S128x256 .f32) (x4 : FVec Ideal S1x128 .f32)
    (p : Fin 2000) (q : Fin 128) :
    k1_pay1 (F := Ideal) x0 x1 x2 x3 x4 (ix2 p q)
      = (∑ k : Fin 256, x0 (ix2 p k) * x2 (ix2 q k)) + (∑ k : Fin 256, x1 (ix2 p k) * x3 (ix2 q k))
          + x4 (ix2 (0 : Fin 1) q) := by
  unfold k1_pay1
  simp only [shapeCast_self]
  show matmul (F := Ideal) _ none x0 x2 _ (ix2 p q) + matmul (F := Ideal) _ none x1 x3 _ (ix2 p q)
      + broadcastTo S2000x128 x4 broadcasts_S1x128_S2000x128 (ix2 p q) = _
  rw [mm1, mm1, broadcastTo_1b_ab_apply]

end Cert.KernelIdeal.Payload

end
-- ==== Proof.SageLayer.lean ====
/-
  One layer of the network, as a function of whole arrays on the extended reals.

  A layer takes the aggregated neighbour features `msg` and the node's own features `x` (both N × Din), two weight
  matrices `Wl`, `Wr` (both Dout × Din, contracted on their LAST axis, so the layer multiplies by their transposes) and
  a bias `b` (Dout):
      lin(r, o) = Σ_k msg(r, k) · Wl(o, k) + Σ_k x(r, k) · Wr(o, k) + b(o).
  The first layer clamps this at zero from below. Addition on the extended reals is commutative and associative
  (also at the infinities), which is all that the two programs' different order of the three summands needs.
-/
import Idealize.ShloMosaic.PureOps.Ideal
import Idealize.ShloMosaic.Lib.ValueIdx

noncomputable section

namespace Cert.Sage

open Idealize.ShloMosaic Idealize.ShloMosaic.ValueIdx

/-- The linear part of a layer at the output index (r, o). -/
def lin (N Din Dout : Nat) (msg x : FVec Ideal ⟨2, ![N, Din]⟩ .f32) (Wl Wr : FVec Ideal ⟨2, ![Dout, Din]⟩ .f32)
    (b : FVec Ideal ⟨1, ![Dout]⟩ .f32) : FVec Ideal ⟨2, ![N, Dout]⟩ .f32 :=
  fun i => (∑ k : Fin Din, msg (ix2 (i 0) k) * Wl (ix2 (i 1) k)) + (∑ k : Fin Din, x (ix2 (i 0) k) * Wr (ix2 (i 1) k))
    + b (ix1 (i 1))

/-- The clamp at zero from below, element by element (the zero written as the float word both programs print). -/
def relu (N D : Nat) (v : FVec Ideal ⟨2, ![N, D]⟩ .f32) : FVec Ideal ⟨2, ![N, D]⟩ .f32 :=
  fun i => max (v i) (Ideal.ofBits .f32 0x00000000#32)

/-- The three summands in the other grouping: (A + b) + B = (A + B) + b on the extended reals. -/
theorem add_right_comm' (A B b : EReal) : A + b + B = A + B + b := add_right_comm A b B

end Cert.Sage

end
-- ==== Proof.Blocks0.lean ====
/-
  The first layer's kernel: from the 25 row blocks its points write back to the whole output array.

  Point t works on rows 2000·t … 2000·t + 1999: it reads those rows of the aggregated features and of the node
  features, the two whole weight matrices and the whole bias row, and writes those rows of the output. Each stored
  element depends on ONE row of the two feature arrays, so the block a point writes is the same rows of one
  whole-array function — the layer of the arrays as the kernel finds them — and the 25 blocks tile the output.
  Stated for ANY contents `V` of the buffers at the kernel's entry, so that nothing here looks at how they were made.
-/
import proofs.«179948_j80023830659560_2_alg».proof.Proof.Gen.KernelIdeal.Frame
import proofs.«179948_j80023830659560_2_alg».proof.Proof.Payload
import proofs.«179948_j80023830659560_2_alg».proof.Proof.SageLayer
import Idealize.ShloMosaic.Lib.Pipeline.Value

set_option maxRecDepth 16384

noncomputable section

namespace Cert.KernelIdeal.Layer0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the kernel's five input windows stage, as the kernel finds them. -/
def layer (c : Dev nD) : FVec Ideal S50000x256 .f32 :=
  let A0 : FVec Ideal S50000x128 .f32 := V c main_v22
  let A1 : FVec Ideal S50000x128 .f32 := V c main_arg0
  let A2 : FVec Ideal S256x128 .f32 := V c main_arg2
  let A3 : FVec Ideal S256x128 .f32 := V c main_arg4
  let A4 : FVec Ideal S1x256 .f32 := V c main_v23
  Cert.Sage.relu 50000 256 (Cert.Sage.lin 50000 128 256 A0 A1 A2 A3 (fun i => A4 (ix2 (0 : Fin 1) (i 0))))

/-- The printed index maps, decided over the grid: the two feature windows and the output window are at row block t,
    the weight and bias windows at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregated-feature window's block at point t, at (p, k), is the array at row 2000·t + p. -/
theorem blk_0 (c : Dev nD) (t : Fin cfg0.N) (p : Fin 2000) (k : Fin 128) (r : Fin 50000) (hr : r.val = t.val * 2000 + p.val) :
    (iblk0 V c 0 t : FVec Ideal S2000x128 .f32) (ix2 p k) = (V c main_v22 : FVec Ideal S50000x128 .f32) (ix2 r k) := by
  obtain ⟨e0, e1, -⟩ := idx_facts t
  unfold iblk0
  rw [View.read_apply]
  show V c main_v22 _ = V c main_v22 _
  refine congrArg (V c main_v22) ?_
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The node-feature window's block at point t, at (p, k), is the array at row 2000·t + p. -/
theorem blk_1 (c : Dev nD) (t : Fin cfg0.N) (p : Fin 2000) (k : Fin 128) (r : Fin 50000) (hr : r.val = t.val * 2000 + p.val) :
    (iblk0 V c 1 t : FVec Ideal S2000x128 .f32) (ix2 p k) = (V c main_arg0 : FVec Ideal S50000x128 .f32) (ix2 r k) := by
  obtain ⟨-, -, e0, e1, -⟩ := idx_facts t
  unfold iblk0
  rw [View.read_apply]
  show V c main_arg0 _ = V c main_arg0 _
  refine congrArg (V c main_arg0) ?_
  funext a
  apply Fin.ext
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- The first weight window's one block is the whole matrix. -/
theorem blk_2 (c : Dev nD) (t : Fin cfg0.N) (q : Fin 256) (k : Fin 128) :
    (iblk0 V c 2 t : FVec Ideal S256x128 .f32) (ix2 q k) = (V c main_arg2 : FVec Ideal S256x128 .f32) (ix2 q k) := by
  obtain ⟨-, -, -, -, e0, e1, -⟩ := idx_facts t
  unfold iblk0
  rw [View.read_apply]
  show V c main_arg2 _ = V c main_arg2 _
  refine congrArg (V c main_arg2) ?_
  funext a
  apply Fin.ext
  match a with
  | ⟨0, _⟩ => show win0_2.index t (0 : Fin 2) * 256 + 1 * q.val = q.val; rw [e0]; omega
  | ⟨1, _⟩ => show win0_2.index t (1 : Fin 2) * 128 + 1 * k.val = k.val; rw [e1]; omega

/-- The second weight window's one block is the whole matrix. -/
theorem blk_3 (c : Dev nD) (t : Fin cfg0.N) (q : Fin 256) (k : Fin 128) :
    (iblk0 V c 3 t : FVec Ideal S256x128 .f32) (ix2 q k) = (V c main_arg4 : FVec Ideal S256x128 .f32) (ix2 q k) := by
  obtain ⟨-, -, -, -, -, -, e0, e1, -⟩ := idx_facts t
  unfold iblk0
  rw [View.read_apply]
  show V c main_arg4 _ = V c main_arg4 _
  refine congrArg (V c main_arg4) ?_
  funext a
  apply Fin.ext
  match a with
  | ⟨0, _⟩ => show win0_3.index t (0 : Fin 2) * 256 + 1 * q.val = q.val; rw [e0]; omega
  | ⟨1, _⟩ => show win0_3.index t (1 : Fin 2) * 128 + 1 * k.val = k.val; rw [e1]; omega

/-- The bias window's one block is the whole bias row. -/
theorem blk_4 (c : Dev nD) (t : Fin cfg0.N) (q : Fin 256) :
    (iblk0 V c 4 t : FVec Ideal S1x256 .f32) (ix2 (0 : Fin 1) q) = (V c main_v23 : FVec Ideal S1x256 .f32) (ix2 (0 : Fin 1) q) := by
  obtain ⟨-, -, -, -, -, -, -, -, e0, e1, -⟩ := idx_facts t
  unfold iblk0
  rw [View.read_apply]
  show V c main_v23 _ = V c main_v23 _
  refine congrArg (V c main_v23) ?_
  funext a
  apply Fin.ext
  match a with
  | ⟨0, _⟩ => show win0_4.index t (0 : Fin 2) * 1 + 1 * 0 = 0; rw [e0]
  | ⟨1, _⟩ => show win0_4.index t (1 : Fin 2) * 256 + 1 * q.val = q.val; rw [e1]; omega

/-- WHAT POINT t WRITES BACK is rows 2000·t … of the layer of the arrays as the kernel finds them. -/
theorem flushed_eq (c : Dev nD) (t : Fin cfg0.N) :
    (dat0 V c).flushed 5 t = ((cfg0.win 5).blk t).view.read (Elt Ideal) (layer V c) := by
  have hN : cfg0.N = 25 := N_0
  have ht : t.val < 25 := hN ▸ t.isLt
  obtain ⟨-, -, -, -, -, -, -, -, -, -, e0, e1⟩ := idx_facts t
  show (cfg0.win 5).cut (grid0.coords t) ((dat0 V c).after 5 t) = _
  rw [after0_5]
  unfold out0_5
  rw [View.canon_unit_zero hz]
  simp only [View.ld_unit_zero (S := S2000x128) hz, View.ld_unit_zero (S := S256x128) hz, View.ld_unit_zero (S := S1x256) hz]
  funext j
  obtain ⟨p, q, rfl⟩ : ∃ (p : Fin 2000) (q : Fin 256), j = ix2 p q := ⟨j 0, j 1, eq_ix2 j⟩
  have hp : p.val < 2000 := p.isLt
  let r : Fin 50000 := ⟨t.val * 2000 + p.val, by omega⟩
  have hemb : ((cfg0.win 5).blk t).view.emb (ix2 p q) = (ix2 r q : S50000x256.Idx) := by
    funext a
    apply Fin.ext
    match a with
    | ⟨0, _⟩ => show win0_5.index t (0 : Fin 2) * 2000 + 1 * p.val = t.val * 2000 + p.val; rw [e0]; omega
    | ⟨1, _⟩ => show win0_5.index t (1 : Fin 2) * 256 + 1 * q.val = q.val; rw [e1]; omega
  show k0_pay1 (F := Ideal) (iblk0 V c 0 t) (iblk0 V c 1 t) (iblk0 V c 2 t) (iblk0 V c 3 t) (iblk0 V c 4 t) (ix2 p q)
    = layer V c (((cfg0.win 5).blk t).view.emb (ix2 p q))
  rw [hemb]
  refine (Cert.KernelIdeal.Payload.pay0_apply (iblk0 V c 0 t) (iblk0 V c 1 t) (iblk0 V c 2 t) (iblk0 V c 3 t) (iblk0 V c 4 t) p q).trans ?_
  unfold layer Cert.Sage.relu Cert.Sage.lin
  simp only [blk_0 V c t p _ r rfl, blk_1 V c t p _ r rfl, blk_2 V c t q, blk_3 V c t q, blk_4 V c t q]

/-- An index of the output array is in point t's block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v24).slice (win0_5.rect t)).set ↔ _
  rw [View.set_slice_whole, Rect.mem_set_unit]
  exact Iff.rfl

/-- Row r of the output is in the block of point r / 2000. -/
theorem cover (i : S50000x256.Idx) : ∃ t : Fin cfg0.N, (cfg0.win 5).flush t = true ∧ i ∈ ((cfg0.win 5).blk t).view.set := by
  have hN : cfg0.N = 25 := N_0
  have hi0 : (i 0).val < 50000 := (i 0).isLt
  have hi1 : (i 1).val < 256 := (i 1).isLt
  let t : Fin cfg0.N := ⟨(i 0).val / 2000, by rw [hN]; omega⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    rw [e0]; show (i 0).val / 2000 * 2000 ≤ (i 0).val ∧ (i 0).val < (i 0).val / 2000 * 2000 + 2000; omega
  | ⟨1, _⟩ =>
    show win0_5.index t (1 : Fin 2) * 256 ≤ (i 1).val ∧ (i 1).val < win0_5.index t (1 : Fin 2) * 256 + 256
    rw [e1]; omega

/-- THE OUTPUT ARRAY after the last point is the layer of the arrays as the kernel finds them. -/
theorem final (c : Dev nD) : (dat0 V c).arrAt 5 cfg0.N = layer V c :=
  (dat0 V c).arrAt_eq_of_cover 5 (layer V c) (fun t _ => flushed_eq V c t) cover

end Cert.KernelIdeal.Layer0

end
-- ==== Proof.Blocks1.lean ====
/-
  The second layer's kernel: from the 25 row blocks its points write back to the whole output array.

  Point t works on rows 2000·t … 2000·t + 1999: it reads those rows of the aggregated features and of the node
  features, the two whole weight matrices and the whole bias row, and writes those rows of the output. Each stored
  element depends on ONE row of the two feature arrays, so the block a point writes is the same rows of one
  whole-array function — the layer of the arrays as the kernel finds them — and the 25 blocks tile the output.
  Stated for ANY contents `V` of the buffers at the kernel's entry, so that nothing here looks at how they were made.
-/
import proofs.«179948_j80023830659560_2_alg».proof.Proof.Gen.KernelIdeal.Frame
import proofs.«179948_j80023830659560_2_alg».proof.Proof.Payload
import proofs.«179948_j80023830659560_2_alg».proof.Proof.SageLayer
import Idealize.ShloMosaic.Lib.Pipeline.Value

set_option maxRecDepth 16384

noncomputable section

namespace Cert.KernelIdeal.Layer1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the kernel's five input windows stage, as the kernel finds them. -/
def layer (c : Dev nD) : FVec Ideal S50000x128 .f32 :=
  let A0 : FVec Ideal S50000x256 .f32 := V c main_v43
  let A1 : FVec Ideal S50000x256 .f32 := V c main_v24
  let A2 : FVec Ideal S128x256 .f32 := V c main_arg5
  let A3 : FVec Ideal S128x256 .f32 := V c main_arg7
  let A4 : FVec Ideal S1x128 .f32 := V c main_v44
  Cert.Sage.lin 50000 256 128 A0 A1 A2 A3 (fun i => A4 (ix2 (0 : Fin 1) (i 0)))

/-- The printed index maps, decided over the grid: the two feature windows and the output window are at row block t,
    the weight and bias windows at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregated-feature window's block at point t, at (p, k), is the array at row 2000·t + p. -/
theorem blk_0 (c : Dev nD) (t : Fin cfg1.N) (p : Fin 2000) (k : Fin 256) (r : Fin 50000) (hr : r.val = t.val * 2000 + p.val) :
    (iblk1 V c 0 t : FVec Ideal S2000x256 .f32) (ix2 p k) = (V c main_v43 : FVec Ideal S50000x256 .f32) (ix2 r k) := by
  obtain ⟨e0, e1, -⟩ := idx_facts t
  unfold iblk1
  rw [View.read_apply]
  show V c main_v43 _ = V c main_v43 _
  refine congrArg (V c main_v43) ?_
  funext a
  apply Fin.ext
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- The node-feature window's block at point t, at (p, k), is the array at row 2000·t + p. -/
theorem blk_1 (c : Dev nD) (t : Fin cfg1.N) (p : Fin 2000) (k : Fin 256) (r : Fin 50000) (hr : r.val = t.val * 2000 + p.val) :
    (iblk1 V c 1 t : FVec Ideal S2000x256 .f32) (ix2 p k) = (V c main_v24 : FVec Ideal S50000x256 .f32) (ix2 r k) := by
  obtain ⟨-, -, e0, e1, -⟩ := idx_facts t
  unfold iblk1
  rw [View.read_apply]
  show V c main_v24 _ = V c main_v24 _
  refine congrArg (V c main_v24) ?_
  funext a
  apply Fin.ext
  match a with
  | ⟨0, _⟩ => show win1_1.index t (0 : Fin 2) * 2000 + 1 * p.val = r.val; rw [e0, hr]; omega
  | ⟨1, _⟩ => show win1_1.index t (1 : Fin 2) * 256 + 1 * k.val = k.val; rw [e1]; omega

/-- The first weight window's one block is the whole matrix. -/
theorem blk_2 (c : Dev nD) (t : Fin cfg1.N) (q : Fin 128) (k : Fin 256) :
    (iblk1 V c 2 t : FVec Ideal S128x256 .f32) (ix2 q k) = (V c main_arg5 : FVec Ideal S128x256 .f32) (ix2 q k) := by
  obtain ⟨-, -, -, -, e0, e1, -⟩ := idx_facts t
  unfold iblk1
  rw [View.read_apply]
  show V c main_arg5 _ = V c main_arg5 _
  refine congrArg (V c main_arg5) ?_
  funext a
  apply Fin.ext
  match a with
  | ⟨0, _⟩ => show win1_2.index t (0 : Fin 2) * 128 + 1 * q.val = q.val; rw [e0]; omega
  | ⟨1, _⟩ => show win1_2.index t (1 : Fin 2) * 256 + 1 * k.val = k.val; rw [e1]; omega

/-- The second weight window's one block is the whole matrix. -/
theorem blk_3 (c : Dev nD) (t : Fin cfg1.N) (q : Fin 128) (k : Fin 256) :
    (iblk1 V c 3 t : FVec Ideal S128x256 .f32) (ix2 q k) = (V c main_arg7 : FVec Ideal S128x256 .f32) (ix2 q k) := by
  obtain ⟨-, -, -, -, -, -, e0, e1, -⟩ := idx_facts t
  unfold iblk1
  rw [View.read_apply]
  show V c main_arg7 _ = V c main_arg7 _
  refine congrArg (V c main_arg7) ?_
  funext a
  apply Fin.ext
  match a with
  | ⟨0, _⟩ => show win1_3.index t (0 : Fin 2) * 128 + 1 * q.val = q.val; rw [e0]; omega
  | ⟨1, _⟩ => show win1_3.index t (1 : Fin 2) * 256 + 1 * k.val = k.val; rw [e1]; omega

/-- The bias window's one block is the whole bias row. -/
theorem blk_4 (c : Dev nD) (t : Fin cfg1.N) (q : Fin 128) :
    (iblk1 V c 4 t : FVec Ideal S1x128 .f32) (ix2 (0 : Fin 1) q) = (V c main_v44 : FVec Ideal S1x128 .f32) (ix2 (0 : Fin 1) q) := by
  obtain ⟨-, -, -, -, -, -, -, -, e0, e1, -⟩ := idx_facts t
  unfold iblk1
  rw [View.read_apply]
  show V c main_v44 _ = V c main_v44 _
  refine congrArg (V c main_v44) ?_
  funext a
  apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-- WHAT POINT t WRITES BACK is rows 2000·t … of the layer of the arrays as the kernel finds them. -/
theorem flushed_eq (c : Dev nD) (t : Fin cfg1.N) :
    (dat1 V c).flushed 5 t = ((cfg1.win 5).blk t).view.read (Elt Ideal) (layer V c) := by
  have hN : cfg1.N = 25 := N_1
  have ht : t.val < 25 := hN ▸ t.isLt
  obtain ⟨-, -, -, -, -, -, -, -, -, -, e0, e1⟩ := idx_facts t
  show (cfg1.win 5).cut (grid1.coords t) ((dat1 V c).after 5 t) = _
  rw [after1_5]
  unfold out1_5
  rw [View.canon_unit_zero hz]
  simp only [View.ld_unit_zero (S := S2000x256) hz, View.ld_unit_zero (S := S128x256) hz, View.ld_unit_zero (S := S1x128) hz]
  funext j
  obtain ⟨p, q, rfl⟩ : ∃ (p : Fin 2000) (q : Fin 128), j = ix2 p q := ⟨j 0, j 1, eq_ix2 j⟩
  have hp : p.val < 2000 := p.isLt
  let r : Fin 50000 := ⟨t.val * 2000 + p.val, by omega⟩
  have hemb : ((cfg1.win 5).blk t).view.emb (ix2 p q) = (ix2 r q : S50000x128.Idx) := by
    funext a
    apply Fin.ext
    match a with
    | ⟨0, _⟩ => show win1_5.index t (0 : Fin 2) * 2000 + 1 * p.val = t.val * 2000 + p.val; rw [e0]; omega
    | ⟨1, _⟩ => show win1_5.index t (1 : Fin 2) * 128 + 1 * q.val = q.val; rw [e1]; omega
  show k1_pay1 (F := Ideal) (iblk1 V c 0 t) (iblk1 V c 1 t) (iblk1 V c 2 t) (iblk1 V c 3 t) (iblk1 V c 4 t) (ix2 p q)
    = layer V c (((cfg1.win 5).blk t).view.emb (ix2 p q))
  rw [hemb]
  refine (Cert.KernelIdeal.Payload.pay1_apply (iblk1 V c 0 t) (iblk1 V c 1 t) (iblk1 V c 2 t) (iblk1 V c 3 t) (iblk1 V c 4 t) p q).trans ?_
  unfold layer Cert.Sage.lin
  simp only [blk_0 V c t p _ r rfl, blk_1 V c t p _ r rfl, blk_2 V c t q, blk_3 V c t q, blk_4 V c t q]

/-- An index of the output array is in point t's block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- Row r of the output is in the block of point r / 2000. -/
theorem cover (i : S50000x128.Idx) : ∃ t : Fin cfg1.N, (cfg1.win 5).flush t = true ∧ i ∈ ((cfg1.win 5).blk t).view.set := by
  have hN : cfg1.N = 25 := N_1
  have hi0 : (i 0).val < 50000 := (i 0).isLt
  have hi1 : (i 1).val < 128 := (i 1).isLt
  let t : Fin cfg1.N := ⟨(i 0).val / 2000, by rw [hN]; omega⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    rw [e0]; show (i 0).val / 2000 * 2000 ≤ (i 0).val ∧ (i 0).val < (i 0).val / 2000 * 2000 + 2000; omega
  | ⟨1, _⟩ =>
    show win1_5.index t (1 : Fin 2) * 128 ≤ (i 1).val ∧ (i 1).val < win1_5.index t (1 : Fin 2) * 128 + 128
    rw [e1]; omega

/-- THE OUTPUT ARRAY after the last point is the layer of the arrays as the kernel finds them. -/
theorem final (c : Dev nD) : (dat1 V c).arrAt 5 cfg1.N = layer V c :=
  (dat1 V c).arrAt_eq_of_cover 5 (layer V c) (fun t _ => flushed_eq V c t) cover

end Cert.KernelIdeal.Layer1

end
-- ==== Proof.Aggregate.lean ====
/-
  The neighbour mean, as the host operations compute it: one opaque function of a feature array and the edge list.

  Both programs take, for each of the 800000 edges, the feature row of the edge's source node (a negative source index
  wrapped by adding 50000), add it into the row of the edge's target node starting from zeros, count each node's incoming
  edges the same way (adding 1 per edge), clamp the count at 1 from below and divide each summed row by its node's
  count. The two programs print this with the SAME operations in the same order, so the proof never opens the gather or
  the scatter-add: it names the chain once, here, for features of width 128 and of width 256, and shows of each program
  only that this chain is what it applies.
-/
import proofs.«179948_j80023830659560_2_alg».proof.Proof.Gen.KernelIdeal

noncomputable section

namespace Cert.KernelIdeal.Agg

open Cert.KernelIdeal Cert.KernelIdeal.Gen Idealize.ShloMosaic

variable {F : FTy → Type} [FloatOps F]

/-- Row 0 of the edge list as a vector: each edge's source node. -/
def edgeSrc (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- Row 1 of the edge list as a vector: each edge's target node. -/
def edgeDst (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- The source indices as a column, a negative one wrapped by adding 50000. -/
def srcCol (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The target indices as a column. -/
def dstCol (dst : (⟨S800000, .i32⟩ : BufTy).Contents (Elt F)) : (⟨S800000x1, .i32⟩ : BufTy).Contents (Elt F) :=
  broadcastInDim S800000x1 ![0] bcast_S800000_S800000x1_0 dst

/-- Each node's number of incoming edges, clamped at 1 from below. -/
def degree (dst : (⟨S800000, .i32⟩ : BufTy).Contents (Elt F)) : (⟨S50000, .f32⟩ : BufTy).Contents (Elt F) :=
  maximumf
    (Host.scatterAdd scatter_S50000_S800000x1_S800000_n_0_0_1
      (broadcastInDim S50000 ![] bcast_S_S50000 (constant S_ .f32 0x00000000#32)) (dstCol dst)
      (broadcastInDim S800000 ![] bcast_S_S800000 (constant S_ .f32 0x3F800000#32)))
    (broadcastInDim S50000 ![] bcast_S_S50000 (constant S_ .f32 0x3F800000#32))

/-- The neighbour mean of features of width 128. -/
def mean128 (x : (⟨S50000x128, .f32⟩ : BufTy).Contents (Elt F)) (src dst : (⟨S800000, .i32⟩ : BufTy).Contents (Elt F)) : (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32)) (dstCol dst)
      (Host.gather gather_S50000x128_S800000x1_S800000x128_1_0_n_n_0_1_1128 x (srcCol src)))
    (broadcastInDim S50000x128 ![0, 1] bcast_S50000x1_S50000x128_0_1
      (broadcastInDim S50000x1 ![0] bcast_S50000_S50000x1_0 (degree dst)))

/-- The neighbour mean of features of width 256. -/
def mean256 (h : (⟨S50000x256, .f32⟩ : BufTy).Contents (Elt F)) (src dst : (⟨S800000, .i32⟩ : BufTy).Contents (Elt F)) : (⟨S50000x256, .f32⟩ : BufTy).Contents (Elt F) :=
  Host.divf
    (Host.scatterAdd scatter_S50000x256_S800000x1_S800000x256_1_0_0_1
      (broadcastInDim S50000x256 ![] bcast_S_S50000x256 (constant S_ .f32 0x00000000#32)) (dstCol dst)
      (Host.gather gather_S50000x256_S800000x1_S800000x256_1_0_n_n_0_1_1256 h (srcCol src)))
    (broadcastInDim S50000x256 ![0, 1] bcast_S50000x1_S50000x256_0_1
      (broadcastInDim S50000x1 ![0] bcast_S50000_S50000x1_0 (degree dst)))

end Cert.KernelIdeal.Agg

end
-- ==== Proof.Boundaries.lean ====
/-
  What the two kernels find in their operands' buffers.

  The first kernel is entered after the first host stretch: its aggregated-feature operand holds the neighbour mean of
  the node features, its bias operand the first bias as a row, and its other three operands are arguments, untouched.
  The second kernel is entered after the second host stretch, which starts from what the first kernel left: its
  aggregated-feature operand holds the neighbour mean of the FIRST KERNEL'S OUTPUT ARRAY over the same edge list, its
  node-feature operand that output array itself, its bias operand the second bias as a row, its weights are arguments.
-/
import proofs.«179948_j80023830659560_2_alg».proof.Proof.Gen.KernelIdeal.Frame
import proofs.«179948_j80023830659560_2_alg».proof.Proof.Aggregate

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Entering the first kernel -/

theorem in0_msg (c : Dev nD) : V1 m ρ c main_v22
    = Agg.mean128 (m ((c : Thread nD τ).loc main_arg0)) (Agg.edgeSrc (m ((c : Thread nD τ).loc main_arg1))) (Agg.edgeDst (m ((c : Thread nD τ).loc main_arg1))) := by
  show StableHlo.after hostOps0 (W0 m ρ c) (Proc.devRef .tc main_v22) = _
  after_results_simp
  rfl

theorem in0_x (c : Dev nD) : V1 m ρ c main_arg0 = m ((c : Thread nD τ).loc main_arg0) := by
  show StableHlo.after hostOps0 (W0 m ρ c) (Proc.devRef .tc main_arg0) = _
  after_results_simp

theorem in0_wl (c : Dev nD) : V1 m ρ c main_arg2 = m ((c : Thread nD τ).loc main_arg2) := by
  show StableHlo.after hostOps0 (W0 m ρ c) (Proc.devRef .tc main_arg2) = _
  after_results_simp

theorem in0_wr (c : Dev nD) : V1 m ρ c main_arg4 = m ((c : Thread nD τ).loc main_arg4) := by
  show StableHlo.after hostOps0 (W0 m ρ c) (Proc.devRef .tc main_arg4) = _
  after_results_simp

theorem in0_b (c : Dev nD) : V1 m ρ c main_v23 = shapeCast _ (m ((c : Thread nD τ).loc main_arg3)) shapeCasts_S256_S1x256 := by
  show StableHlo.after hostOps0 (W0 m ρ c) (Proc.devRef .tc main_v23) = _
  after_results_simp
  rfl

/-- The edge sources, computed by the first stretch, are still there after it. -/
theorem w1_src (c : Dev nD) : W1 m ρ c (Proc.devRef .tc main_v1) = Agg.edgeSrc (m ((c : Thread nD τ).loc main_arg1)) := by
  show StableHlo.after hostOps0 (W0 m ρ c) (Proc.devRef .tc main_v1) = _
  after_results_simp
  rfl

theorem w1_dst (c : Dev nD) : W1 m ρ c (Proc.devRef .tc main_v3) = Agg.edgeDst (m ((c : Thread nD τ).loc main_arg1)) := by
  show StableHlo.after hostOps0 (W0 m ρ c) (Proc.devRef .tc main_v3) = _
  after_results_simp
  rfl

theorem w1_arg (c : Dev nD) :
    W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7) := by
  refine ⟨?_, ?_, ?_⟩
  · show StableHlo.after hostOps0 (W0 m ρ c) (Proc.devRef .tc main_arg5) = _
    after_results_simp
  · show StableHlo.after hostOps0 (W0 m ρ c) (Proc.devRef .tc main_arg6) = _
    after_results_simp
  · show StableHlo.after hostOps0 (W0 m ρ c) (Proc.devRef .tc main_arg7) = _
    after_results_simp

/-! ## Entering the second kernel -/

/-- The first kernel's output array after its last point. -/
abbrev hidden (c : Dev nD) : Buf (Elt F) ((c : Thread nD τ).loc main_v24) := (dat0 (V1 m ρ) c).arrAt 5 cfg0.N

theorem in1_msg (c : Dev nD) : V3 m ρ c main_v43
    = Agg.mean256 (hidden m ρ c) (Agg.edgeSrc (m ((c : Thread nD τ).loc main_arg1))) (Agg.edgeDst (m ((c : Thread nD τ).loc main_arg1))) := by
  show StableHlo.after hostOps1 (W2 m ρ c) (Proc.devRef .tc main_v43) = _
  after_results_simp
  rw [W2_arr m ρ c 5, W2_of_ne m ρ c main_v1 (by decide), W2_of_ne m ρ c main_v3 (by decide), w1_src, w1_dst]
  rfl

theorem in1_h (c : Dev nD) : V3 m ρ c main_v24 = hidden m ρ c := by
  show StableHlo.after hostOps1 (W2 m ρ c) (Proc.devRef .tc main_v24) = _
  after_results_simp
  exact W2_arr m ρ c 5

theorem in1_wl (c : Dev nD) : V3 m ρ c main_arg5 = m ((c : Thread nD τ).loc main_arg5) := by
  show StableHlo.after hostOps1 (W2 m ρ c) (Proc.devRef .tc main_arg5) = _
  after_results_simp
  exact (W2_of_ne m ρ c main_arg5 (by decide)).trans (w1_arg m ρ c).1

theorem in1_wr (c : Dev nD) : V3 m ρ c main_arg7 = m ((c : Thread nD τ).loc main_arg7) := by
  show StableHlo.after hostOps1 (W2 m ρ c) (Proc.devRef .tc main_arg7) = _
  after_results_simp
  exact (W2_of_ne m ρ c main_arg7 (by decide)).trans (w1_arg m ρ c).2.2

theorem in1_b (c : Dev nD) : V3 m ρ c main_v44 = shapeCast _ (m ((c : Thread nD τ).loc main_arg6)) shapeCasts_S128_S1x128 := by
  show StableHlo.after hostOps1 (W2 m ρ c) (Proc.devRef .tc main_v44) = _
  after_results_simp
  rw [W2_of_ne m ρ c main_arg6 (by decide), (w1_arg m ρ c).2.1]
  rfl

end Cert.KernelIdeal.Boundaries

end
-- ==== Proof.WholeRun.lean ====
/-
  The program's run with its result named.

  The program is four stretches in order: host operations, the first layer's kernel over its 25 row blocks, host
  operations again, the second layer's kernel over its 25 row blocks. The buffer contents at each boundary are a fold
  from the launch memory: after a host stretch, the stretch's operations applied; after a kernel, its arrays at what
  the write-backs of all points leave and every other buffer as entered. Every weakly fair execution terminates
  with every unscoped buffer at the last boundary's contents; read at the result buffer, that is the second kernel's
  output array after its last point, and read at an argument it is the argument as launched.
-/
import proofs.«179948_j80023830659560_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the second kernel's output
    array after its last point and the eight arguments as launched. -/
theorem run_result : θ_run defs (onTc (τ := τ) (main (F := F))) ⟨m, fun _ => 0, ρ⟩ (fun r => ∀ c : Dev nD,
      r.2.mem ((c.tc : Thread nD τ).loc main_v45) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v45 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.KernelValue.lean ====
/-
  The kernel program's result as one function of its eight arguments.

  Chaining the boundaries: the first kernel's output array is the clamped layer of (the neighbour mean of the node
  features, the node features, the first weights, the first bias); the second kernel's output array — the program's
  result — is the layer of (the neighbour mean of that array, that array, the second weights, the second bias). A bias
  the host reshaped to a one-row matrix, read back along its row, is the bias.
-/
import proofs.«179948_j80023830659560_2_alg».proof.Proof.Blocks0
import proofs.«179948_j80023830659560_2_alg».proof.Proof.Blocks1
import proofs.«179948_j80023830659560_2_alg».proof.Proof.Boundaries
import proofs.«179948_j80023830659560_2_alg».proof.Proof.WholeRun
import Idealize.ShloMosaic.Lib.ValueLayout

set_option maxRecDepth 16384

noncomputable section

namespace Cert.KernelIdeal.Net

open Cert.KernelIdeal Cert.KernelIdeal.Gen
open Idealize.ShloMosaic Idealize.ShloMosaic.TcCoe Idealize.SL.Sem Idealize.ShloMosaic.ValueIdx

/-- The two layers over the shared neighbour mean: the function both programs compute. -/
def twoLayers (x0 : FVec Ideal S50000x128 .f32) (x1 : (⟨S2x800000, .i32⟩ : BufTy).Contents (Elt Ideal))
    (x2 : FVec Ideal S256x128 .f32) (x3 : FVec Ideal S256 .f32) (x4 : FVec Ideal S256x128 .f32)
    (x5 : FVec Ideal S128x256 .f32) (x6 : FVec Ideal S128 .f32) (x7 : FVec Ideal S128x256 .f32) : FVec Ideal S50000x128 .f32 :=
  Cert.Sage.lin 50000 256 128
    (Agg.mean256 (F := Ideal)
      (Cert.Sage.relu 50000 256 (Cert.Sage.lin 50000 128 256 (Agg.mean128 (F := Ideal) x0 (Agg.edgeSrc x1) (Agg.edgeDst x1)) x0 x2 x4 x3))
      (Agg.edgeSrc x1) (Agg.edgeDst x1))
    (Cert.Sage.relu 50000 256 (Cert.Sage.lin 50000 128 256 (Agg.mean128 (F := Ideal) x0 (Agg.edgeSrc x1) (Agg.edgeDst x1)) x0 x2 x4 x3))
    x5 x7 x6

/-- A 256-vector reshaped to one row and read along the row is the vector. -/
theorem row256 (b : FVec Ideal S256 .f32) :
    (fun i : S256.Idx => (shapeCast S1x256 b shapeCasts_S256_S1x256 : FVec Ideal S1x256 .f32) (ix2 (0 : Fin 1) (i 0))) = b := by
  funext i
  obtain ⟨o, rfl⟩ : ∃ o : Fin 256, i = ix1 o := ⟨i 0, eq_ix1 i⟩
  exact shapeCast_a_1a_apply b _ 0 o

/-- A 128-vector reshaped to one row and read along the row is the vector. -/
theorem row128 (b : FVec Ideal S128 .f32) :
    (fun i : S128.Idx => (shapeCast S1x128 b shapeCasts_S128_S1x128 : FVec Ideal S1x128 .f32) (ix2 (0 : Fin 1) (i 0))) = b := by
  funext i
  obtain ⟨o, rfl⟩ : ∃ o : Fin 128, i = ix1 o := ⟨i 0, eq_ix1 i⟩
  exact shapeCast_a_1a_apply b _ 0 o

variable (m : (ℓ : Loc nD τ sig) → Buf (Elt Ideal) ℓ) (ρ : Dev nD → PrngReg)

/-- The first kernel's output array. -/
theorem hidden_value (c : Dev nD) : Boundaries.hidden m ρ c
    = Cert.Sage.relu 50000 256 (Cert.Sage.lin 50000 128 256
        (Agg.mean128 (F := Ideal) (m ((c : Thread nD τ).loc main_arg0)) (Agg.edgeSrc (m ((c : Thread nD τ).loc main_arg1))) (Agg.edgeDst (m ((c : Thread nD τ).loc main_arg1))))
        (m ((c : Thread nD τ).loc main_arg0)) (m ((c : Thread nD τ).loc main_arg2)) (m ((c : Thread nD τ).loc main_arg4)) (m ((c : Thread nD τ).loc main_arg3))) := by
  show (dat0 (V1 m ρ) c).arrAt 5 cfg0.N = _
  rw [Layer0.final]
  unfold Layer0.layer
  dsimp only
  rw [Boundaries.in0_msg, Boundaries.in0_x, Boundaries.in0_wl, Boundaries.in0_wr, Boundaries.in0_b, row256]

/-- The second kernel's output array: the program's result. -/
theorem result_value (c : Dev nD) : (dat1 (V3 m ρ) c).arrAt 5 cfg1.N
    = twoLayers (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Layer1.final]
  unfold Layer1.layer
  dsimp only
  rw [Boundaries.in1_msg, Boundaries.in1_h, Boundaries.in1_wl, Boundaries.in1_wr, Boundaries.in1_b, row128, hidden_value]
  rfl

/-- The run, read: the result buffer ends at the two layers of the arguments, the arguments unchanged. -/
theorem run : θ_run defs (onTc (τ := τ) (main (F := Ideal))) ⟨m, fun _ => 0, ρ⟩ (fun r => ∀ c : Dev nD,
      r.2.mem ((c.tc : Thread nD τ).loc main_v45)
        = twoLayers (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩) (Whole.run_result m ρ)

end Cert.KernelIdeal.Net

end
-- ==== Proof.RefStages.lean ====
/-
  The reference's two layers, read at an index.

  The reference multiplies by each weight matrix TRANSPOSED (a transpose, then a product contracting the feature array's
  last axis with the transposed matrix's first), adds the bias broadcast over the rows BEFORE the second product, and
  clamps the first layer at zero through `maximum` against a broadcast zero. At the output index (r, o) that is
      (Σ_k msg(r, k) · Wl(o, k) + b(o)) + Σ_k x(r, k) · Wr(o, k),
  the layer's three summands in another grouping; addition on the extended reals is commutative and associative, so
  it is the layer as the kernel groups it. The aggregated features `msg` stay the stage the run names: nothing here
  looks inside the neighbour mean.
-/
import proofs.«179948_j80023830659560_2_alg».proof.Proof.Gen.ReferenceIdeal.Read
import proofs.«179948_j80023830659560_2_alg».proof.Proof.SageLayer

noncomputable section

namespace Cert.ReferenceIdeal.Stages

open Cert.ReferenceIdeal Cert.ReferenceIdeal.Gen Cert.ReferenceIdeal.Read
open Idealize.ShloMosaic Idealize.ShloMosaic.ValueIdx

/-- The first layer's output (after the clamp) is the clamped layer of the aggregated features, the node features, the
    two first-layer weights and the first bias. -/
theorem hidden_eq (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal)) :
    val_main_v31 (F := Ideal) x0 x1 x2 x3 x4
      = Cert.Sage.relu 50000 256 (Cert.Sage.lin 50000 128 256 (val_main_v22 (F := Ideal) x0 x1) x0 x2 x4 x3) := by
  funext i
  obtain ⟨p, q, rfl⟩ : ∃ (p : Fin 50000) (q : Fin 256), i = ix2 p q := ⟨i 0, i 1, eq_ix2 i⟩
  have e1 : ∀ k : Fin 128, lidx_main_v24 (ix2 p q) k = ix2 p k := fun k => funext fun a => by
    match a with | ⟨0, _⟩ => rfl | ⟨1, _⟩ => rfl
  have e2 : ∀ k : Fin 128, idx_main_v23 (ridx_main_v24 (ix2 p q) k) = ix2 q k := fun k => funext fun a => by
    match a with | ⟨0, _⟩ => rfl | ⟨1, _⟩ => rfl
  have e3 : ∀ k : Fin 128, lidx_main_v29 (ix2 p q) k = ix2 p k := fun k => funext fun a => by
    match a with | ⟨0, _⟩ => rfl | ⟨1, _⟩ => rfl
  have e4 : ∀ k : Fin 128, idx_main_v28 (ridx_main_v29 (ix2 p q) k) = ix2 q k := fun k => funext fun a => by
    match a with | ⟨0, _⟩ => rfl | ⟨1, _⟩ => rfl
  have e5 : idx_main_v25 (idx_main_v26 (ix2 p q)) = ix1 q := funext fun a => by
    match a with | ⟨0, _⟩ => rfl
  rw [val_main_v31_apply, val_main_v30_apply, val_main_v27_apply, val_main_v24_apply, val_main_v29_apply,
    val_main_v26_apply, val_main_v25_apply, val_main_call0_v0_apply, val_main_call0_cst_apply]
  simp only [val_main_v23_apply, val_main_v28_apply, e1, e2, e3, e4, e5]
  unfold Cert.Sage.relu Cert.Sage.lin
  simp only [Ideal.addf_def, Ideal.maximumf_def, Ideal.ofBits_def]
  rw [add_right_comm]

/-- The result is the (unclamped) layer of the aggregated first-layer output, the first-layer output, the two
    second-layer weights and the second bias. -/
theorem result_eq (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal)) (x5 : (⟨S128x256, .f32⟩ : BufTy).Contents (Elt Ideal))
    (x6 : (⟨S128, .f32⟩ : BufTy).Contents (Elt Ideal)) (x7 : (⟨S128x256, .f32⟩ : BufTy).Contents (Elt Ideal)) :
    val_main_v62 (F := Ideal) x0 x1 x2 x3 x4 x5 x6 x7
      = Cert.Sage.lin 50000 256 128 (val_main_v54 (F := Ideal) x0 x1 x2 x3 x4) (val_main_v31 (F := Ideal) x0 x1 x2 x3 x4) x5 x7 x6 := by
  funext i
  obtain ⟨p, q, rfl⟩ : ∃ (p : Fin 50000) (q : Fin 128), i = ix2 p q := ⟨i 0, i 1, eq_ix2 i⟩
  have e1 : ∀ k : Fin 256, lidx_main_v56 (ix2 p q) k = ix2 p k := fun k => funext fun a => by
    match a with | ⟨0, _⟩ => rfl | ⟨1, _⟩ => rfl
  have e2 : ∀ k : Fin 256, idx_main_v55 (ridx_main_v56 (ix2 p q) k) = ix2 q k := fun k => funext fun a => by
    match a with | ⟨0, _⟩ => rfl | ⟨1, _⟩ => rfl
  have e3 : ∀ k : Fin 256, lidx_main_v61 (ix2 p q) k = ix2 p k := fun k => funext fun a => by
    match a with | ⟨0, _⟩ => rfl | ⟨1, _⟩ => rfl
  have e4 : ∀ k : Fin 256, idx_main_v60 (ridx_main_v61 (ix2 p q) k) = ix2 q k := fun k => funext fun a => by
    match a with | ⟨0, _⟩ => rfl | ⟨1, _⟩ => rfl
  have e5 : idx_main_v57 (idx_main_v58 (ix2 p q)) = ix1 q := funext fun a => by
    match a with | ⟨0, _⟩ => rfl
  rw [val_main_v62_apply, val_main_v59_apply, val_main_v56_apply, val_main_v61_apply, val_main_v58_apply, val_main_v57_apply]
  simp only [val_main_v55_apply, val_main_v60_apply, e1, e2, e3, e4, e5]
  unfold Cert.Sage.lin
  simp only [Ideal.addf_def]
  rw [add_right_comm]

end Cert.ReferenceIdeal.Stages

end
-- ==== Proof.AggSame.lean ====
/-
  The reference's neighbour mean is the kernel program's.

  The reference's stages up to each division are, operation for operation, the chain the kernel program's host
  stretches apply (the two programs print the same gather, scatter-adds, broadcasts and division over shape records with
  the same fields); the second time the reference recomputes the edge sources and targets from the edge list, which is
  the same term again. So each aggregated stage of the reference IS the shared chain applied to its features.
-/
import proofs.«179948_j80023830659560_2_alg».proof.Proof.Gen.ReferenceIdeal.Read
import proofs.«179948_j80023830659560_2_alg».proof.Proof.Aggregate

set_option maxRecDepth 16384

noncomputable section

namespace Cert.AggSame

open Idealize.ShloMosaic
open Cert.ReferenceIdeal.Read

/-- The first layer's aggregated features: the shared chain applied to the node features. -/
theorem mean128_ref (x0 : (⟨Cert.ReferenceIdeal.S50000x128, .f32⟩ : BufTy).Contents (Elt Ideal)) (x1 : (⟨Cert.ReferenceIdeal.S2x800000, .i32⟩ : BufTy).Contents (Elt Ideal)) :
    val_main_v22 (F := Ideal) x0 x1
      = Cert.KernelIdeal.Agg.mean128 (F := Ideal) x0 (Cert.KernelIdeal.Agg.edgeSrc x1) (Cert.KernelIdeal.Agg.edgeDst x1) := rfl

/-- The second layer's aggregated features: the shared chain applied to the first layer's output. -/
theorem mean256_ref (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S256x128, .f32⟩ : BufTy).Contents (Elt Ideal)) (x3 : (⟨Cert.ReferenceIdeal.S256, .f32⟩ : BufTy).Contents (Elt Ideal))
    (x4 : (⟨Cert.ReferenceIdeal.S256x128, .f32⟩ : BufTy).Contents (Elt Ideal)) :
    val_main_v54 (F := Ideal) x0 x1 x2 x3 x4
      = Cert.KernelIdeal.Agg.mean256 (F := Ideal) (val_main_v31 (F := Ideal) x0 x1 x2 x3 x4) (Cert.KernelIdeal.Agg.edgeSrc x1) (Cert.KernelIdeal.Agg.edgeDst x1) := rfl

end Cert.AggSame

end
-- ==== Proof.lean ====
/-
  A two-layer graph network (50000 nodes of 128 features, 800000 edges, hidden width 256, output width 128): each
  layer adds, to the node's own features times one weight matrix, the mean of its in-neighbours' features times
  another, and a bias; the first layer is clamped at zero. The kernel program computes the two neighbour means on the
  host (a gather and scatter-adds) and each layer's two products, bias and clamp in a kernel over 25 blocks of 2000
  rows; the reference does everything on the host.

  Read on the extended reals both are ONE function of the eight arguments (`Net.twoLayers`):
    * the neighbour mean is the same chain of host operations in both programs, named once and never opened;
    * a kernel's product contracts both operands on their last axis, the reference transposes the weight and contracts
      with its first: the same sum Σ_k a(r, k) · W(o, k);
    * the kernel adds the two products and then the bias, the reference adds the bias between them: addition on the
      extended reals is commutative and associative, infinities included, so no finiteness of the inputs is used;
    * rounding the kernel's operands to bf16 is the identity on the extended reals.
  The kernel program's frames are the generated ones; the reference's frame is its generated run; the idealization
  rewrote nothing, so the sanctioned-idealization conjunct is trivial.
-/
import proofs.«179948_j80023830659560_2_alg».proof.Defs
import proofs.«179948_j80023830659560_2_alg».proof.Proof.Gen.Kernel
import proofs.«179948_j80023830659560_2_alg».proof.Proof.Gen.Kernel.Frame
import proofs.«179948_j80023830659560_2_alg».proof.Proof.Gen.KernelIdeal
import proofs.«179948_j80023830659560_2_alg».proof.Proof.Gen.KernelIdeal.Frame
import proofs.«179948_j80023830659560_2_alg».proof.Proof.Gen.ReferenceIdeal
import proofs.«179948_j80023830659560_2_alg».proof.Proof.Gen.ReferenceIdeal.Run
import proofs.«179948_j80023830659560_2_alg».proof.Proof.Gen.ReferenceIdeal.Read
import proofs.«179948_j80023830659560_2_alg».proof.Proof.Gen.Pre_finite_inputs
import proofs.«179948_j80023830659560_2_alg».proof.Proof.KernelValue
import proofs.«179948_j80023830659560_2_alg».proof.Proof.RefStages
import proofs.«179948_j80023830659560_2_alg».proof.Proof.AggSame
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result term is the two layers of its arguments. -/
theorem ref_value (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v62 m' c
      = Cert.KernelIdeal.Net.twoLayers
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)) := by
  rw [Cert.ReferenceIdeal.Read.val_main_v62_eq, Cert.ReferenceIdeal.Stages.result_eq, Cert.AggSame.mean256_ref,
    Cert.ReferenceIdeal.Stages.hidden_eq, Cert.AggSame.mean128_ref]
  rfl

/-- Both programs, run from memories agreeing on the arguments, end with the two layers of the arguments in their
    result buffers. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  rw [ref_value m' c, (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
